-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S32x32 : Shape := ⟨2, ![32, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S8192x4096 .f32) (main_arg1 : FVec F S4096x4096 .f32) (main_arg2 : FVec F S32x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S32x32 : Shape := ⟨2, ![32, 32]⟩
abbrev S1024x4096 : Shape := ⟨2, ![1024, 4096]⟩
abbrev S8x32 : Shape := ⟨2, ![8, 32]⟩
abbrev S1024x8 : Shape := ⟨2, ![1024, 8]⟩
abbrev S32x4096 : Shape := ⟨2, ![32, 4096]⟩
abbrev S1024x32 : Shape := ⟨2, ![1024, 32]⟩
abbrev S2048x512 : Shape := ⟨2, ![2048, 512]⟩
abbrev S2048x2048 : Shape := ⟨2, ![2048, 2048]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S4096x4096, .bf16⟩
  | .hbm, ⟨4, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S8x32, .f32⟩
  | .local _ .vmem, ⟨3, _⟩ => ⟨S8x32, .f32⟩
  | .local _ .vmem, ⟨4, _⟩ => ⟨S1024x4096, .bf16⟩
  | .local _ .vmem, ⟨5, _⟩ => ⟨S1024x4096, .bf16⟩
  | .local _ .vmem, ⟨6, _⟩ => ⟨S2048x512, .f32⟩
  | .local _ .vmem, ⟨7, _⟩ => ⟨S2048x512, .f32⟩
  | .local _ .vmem, ⟨8, _⟩ => ⟨S2048x512, .bf16⟩
  | .local _ .vmem, ⟨9, _⟩ => ⟨S2048x512, .bf16⟩
  | .local _ .vmem, ⟨10, _⟩ => ⟨S2048x2048, .f32⟩
  | .local _ .vmem, ⟨11, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S8x32_S8x32_0_0 : ∀ a, (![0, 0] : Fin 2 → Nat) a + S8x32.size a ≤ S8x32.size a
  h_S8x32 : 0 < S8x32.numel
  iota_S1024x8_d0_w32 : S1024x8.Iotas .tc 32 [0]
  natLt_1_32 : 1 < 32
  iota_S1024x8_d1_w32 : S1024x8.Iotas .tc 32 [1]
  iota_S32x4096_d0_w32 : S32x4096.Iotas .tc 32 [0]
  iota_S32x4096_d1_w32 : S32x4096.Iotas .tc 32 [1]
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  packedbf16_S1024x4096_S1024x4096_0_0 : (Rect.unit (s := S1024x4096) ![0, 0] S1024x4096.size inb_S1024x4096_S1024x4096_0_0).PackedRows (EltTy.packing .bf16)
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x2048_S2048x2048 : S2048x2048.ShapeCasts S2048x2048
  dot_S1024x8_S8x32_S1024x32_1_0_0_1_n_n_wf : DotDims.WF S1024x8 S8x32 S1024x32 [1] [0] [0] [1] [] []
  dot_S1024x32_S32x4096_S1024x4096_1_0_0_1_n_n_wf : DotDims.WF S1024x32 S32x4096 S1024x4096 [1] [0] [0] [1] [] []
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S32x32.size a
  hwx0_1 : ∀ i : grid0.Coords, EltTy.bits .f32 = 32 ∨ (Rect.block (s := S32x32) S8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S4096x4096.size a
  hwx0_2 : ∀ i : grid0.Coords, EltTy.bits .bf16 = 32 ∨ (Rect.block (s := S4096x4096) S1024x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .f32 = 32 ∨ (Rect.block (s := S8192x4096) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S8192x4096.size a
  hwx1_2 : ∀ i : grid1.Coords, EltTy.bits .f32 = 32 ∨ (Rect.block (s := S8192x4096) S2048x2048.size (cc1_transform_2 i) (hinb1_2 i)).WholeWords (EltTy.packing .f32)

variable [Facts₀]

def dot_S1024x8_S8x32_S1024x32_1_0_0_1_n_n : DotDims S1024x8 S8x32 S1024x32 where
  lhsContracting := [1]
  rhsContracting := [0]
  lhsNonContracting := [0]
  rhsNonContracting := [1]
  lhsBatch := []
  rhsBatch := []
  wf := dot_S1024x8_S8x32_S1024x32_1_0_0_1_n_n_wf
def dot_S1024x32_S32x4096_S1024x4096_1_0_0_1_n_n : DotDims S1024x32 S32x4096 S1024x4096 where
  lhsContracting := [1]
  rhsContracting := [0]
  lhsNonContracting := [0]
  rhsNonContracting := [1]
  lhsBatch := []
  rhsBatch := []
  wf := dot_S1024x32_S32x4096_S1024x4096_1_0_0_1_n_n_wf
def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S32x32 : Shape := ⟨2, ![32, 32]⟩
abbrev S32x128x32 : Shape := ⟨3, ![32, 128, 32]⟩
abbrev S4096x32 : Shape := ⟨2, ![4096, 32]⟩
abbrev S4096x32x128 : Shape := ⟨3, ![4096, 32, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S32x128x32, .f32⟩
  | .hbm, ⟨4, _⟩ => ⟨S4096x32, .f32⟩
  | .hbm, ⟨5, _⟩ => ⟨S4096x32x128, .f32⟩
  | .hbm, ⟨6, _⟩ => ⟨S4096x4096, .f32⟩
  | .hbm, ⟨7, _⟩ => ⟨S4096x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S32x32_S32x128x32_0_2 : S32x32.BroadcastsInDim S32x128x32 (![0, 2] : Fin 2 → Fin S32x128x32.rank)
  shapeCasts_S32x128x32_S4096x32 : S32x128x32.ShapeCasts S4096x32
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KRun.lean ====
/-
  The idealized kernel's run with its result array NAMED.

  @main is two kernel regions one after the other. The buffer contents at the three boundaries are a fold from
  the launch memory: `W0` (launch), `W1` (after the dequantizing region: its output array at what its
  write-backs leave, everything else as before), `W2` (after the matrix-product region, likewise). Every
  weakly fair execution terminates with each unscoped buffer at `W2`; read at the result array that is what
  the second region's write-backs leave of an entry state in which the first region's output holds what ITS
  write-backs left, and the three arguments are as launched.
-/
import proofs.«134244_j1915555414610_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and the three arguments as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- The result array at the last boundary is what the matrix-product region's write-backs leave, entered from
    the contents at the middle boundary. -/
theorem W2_result (c : Dev nD) :
    W2 m ρ c (Proc.devRef .tc main_v1) = (dat1 (V1 m ρ) c).arrAt 2 cfg1.N := W2_arr m ρ c 2

/-- At the middle boundary the dequantized weight's array is what the first region's write-backs leave,
    entered from the launch contents; -/
theorem V1_deq (c : Dev nD) : V1 m ρ c main_v0 = (dat0 (V0 m ρ) c).arrAt 2 cfg0.N := W1_arr m ρ c 2

/-- and `x`, which the first region does not touch, is as launched. -/
theorem V1_x (c : Dev nD) : V1 m ρ c main_arg0 = m ((c : Thread nD τ).loc main_arg0) :=
  W1_of_ne m ρ c main_arg0 (by decide)

/-- The first region's two input arrays, at the launch. -/
theorem V0_w (c : Dev nD) : V0 m ρ c main_arg1 = m ((c : Thread nD τ).loc main_arg1) := rfl
theorem V0_s (c : Dev nD) : V0 m ρ c main_arg2 = m ((c : Thread nD τ).loc main_arg2) := rfl

end Cert.KernelIdeal.KRun

end
-- ==== Proof.GemmPieces.lean ====
/-
  What the matrix-product body leaves in its output block, in each of its two control cases, as ONE pure term
  of what it loaded.

  * At a point that is not the first of its run along the contracted grid axis the body adds, to the block
    `xo` that the point before left, the product of the two input blocks: `k1_pay2 x0 x1 xo`.
  * At the first point of a run it stores the zero block, reads it back, and adds the product to that:
    `k1_pay2 x0 x1 k1_pay1`.
-/
import proofs.«134244_j1915555414610_2_alg».proof.Proof.Gen.KernelIdeal.Frame
import Idealize.ShloMosaic.Lib.Pipeline.Value
import Idealize.ShloMosaic.Lib.Tactic

set_option maxRecDepth 16384

noncomputable section

namespace Cert.KernelIdeal.GemmPieces

open Cert.KernelIdeal Cert.KernelIdeal.Gen
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- Not the first point of a run: the block the point before left, plus the product of the input blocks. -/
theorem out_B (c : Dev nD) (i : grid1.Coords) (a3 : Memref sig .tc .vmem S2048x512 .f32) (h3 : a3.IsWhole)
    (a4 : Memref sig .tc .vmem S2048x512 .bf16) (h4 : a4.IsWhole) (a5 : Memref sig .tc .vmem S2048x2048 .f32) (h5 : a5.IsWhole)
    (hc : ¬cond1_0 i) (x0 : Vec F S2048x512 .f32) (x1 : Vec F S2048x512 .bf16) (xo : Vec F S2048x2048 .f32) :
    out1_B_2 c i a3 h3 a4 h4 a5 h5 hc x0 x1 xo = k1_pay2 x0 x1 xo := by
  unfold out1_B_2
  rw [View.read_writes_eq_canon _ _ _ (cover1_B_2 c i a3 h3 a4 h4 a5 h5 hc x0 x1 xo)]
  unfold kernelRun1_B
  dsimp only
  rw [View.canon_unit_zero hz]
  simp only [View.readAt_eq_ld, h3.read_unread, h4.read_unread, h5.read_unread, View.ld_unit_zero (S := S2048x512) hz,
    View.ld_unit_zero (S := S2048x2048) hz]

/-- The first point of a run: the zero block, read back, plus the product of the input blocks. -/
theorem out_A (c : Dev nD) (i : grid1.Coords) (a3 : Memref sig .tc .vmem S2048x512 .f32) (h3 : a3.IsWhole)
    (a4 : Memref sig .tc .vmem S2048x512 .bf16) (h4 : a4.IsWhole) (a5 : Memref sig .tc .vmem S2048x2048 .f32) (h5 : a5.IsWhole)
    (hc : cond1_0 i) (x0 : Vec F S2048x512 .f32) (x1 : Vec F S2048x512 .bf16) :
    out1_A_2 c i a3 h3 a4 h4 a5 h5 hc x0 x1 = k1_pay2 x0 x1 (k1_pay1 (F := F)) := by
  unfold out1_A_2
  rw [View.read_writes_eq_canon _ _ _ (cover1_A_2 c i a3 h3 a4 h4 a5 h5 hc x0 x1)]
  unfold kernelRun1_A
  dsimp only
  sl_unfold_words
  rw [View.canon_cons_unit_zero (S := S2048x2048) hz, View.readCov_unit_zero (S := S2048x2048) _ hz]
  simp only [View.readAt_eq_ld, h3.read_unread, h4.read_unread, View.ld_unit_zero (S := S2048x512) hz,
    View.ld_unit_zero (S := S2048x2048) hz]

end Cert.KernelIdeal.GemmPieces

end
-- ==== Proof.Spec.lean ====
/-
  The two whole-array functions that both programs compute on the extended reals, and the one law of finite
  sums that the k-blocked accumulation needs.

  * `deq w s`: the dequantized weight. Entry (n, k) of the 4096 x 4096 weight is scaled by the entry of the
    32 x 32 table that its 128 x 128 tile belongs to: `w[n, k] * s[n / 128, k / 128]`.
  * `gemm x wd`: `y[m, n] = sum over k < 4096 of x[m, k] * wd[n, k]` (both operands contracted on their
    second axis).
  * `result x w s = gemm x (deq w s)`.

  The accumulation over the contracted axis in 8 slabs of 512 is a partial sum over an initial segment of
  the naturals (`psum`): the segment grows by 512 per slab (`psum_step`), is empty before the first slab
  (`psum_zero`) and is the whole sum after the eighth (`psum_full`). Only commutative-monoid facts about
  finite sums are used, so nothing here needs the entries to be finite.
-/
import Idealize.ShloMosaic.PureOps.Ideal
import Idealize.ShloMosaic.Lib.ValueIdx

noncomputable section

namespace Cert.Spec

open Idealize.ShloMosaic Idealize.ShloMosaic.ValueIdx

/-- The three argument shapes, spelt as literals (each program's own shape abbreviations unfold to these). -/
abbrev SX : Shape := ⟨2, ![8192, 4096]⟩
abbrev SW : Shape := ⟨2, ![4096, 4096]⟩
abbrev SS : Shape := ⟨2, ![32, 32]⟩

/-- The 128-wide tile that a row or column of the weight belongs to. -/
def tile (k : Fin 4096) : Fin 32 := ⟨k.val / 128, by have := k.isLt; omega⟩

theorem tile_val (k : Fin 4096) : (tile k).val = k.val / 128 := rfl

/-- The dequantized weight: every entry times its tile's scale. -/
def deq (w : SW.Idx → EReal) (s : SS.Idx → EReal) : SW.Idx → EReal :=
  fun i => w i * s (ix2 (tile (i 0)) (tile (i 1)))

/-- `x` times the transpose of `wd`: both contracted along their second axis. -/
def gemm (x : SX.Idx → EReal) (wd : SW.Idx → EReal) : SX.Idx → EReal :=
  fun i => ∑ k : Fin 4096, x (ix2 (i 0) k) * wd (ix2 (i 1) k)

/-- What both programs compute. -/
def result (x : SX.Idx → EReal) (w : SW.Idx → EReal) (s : SS.Idx → EReal) : SX.Idx → EReal :=
  gemm x (deq w s)

/-- The k-th product of row `m` of `x` with row `n` of `wd`, as a function on all naturals (zero past the
    contracted extent), so that partial sums over initial segments need no dependent bounds. -/
def term (x : SX.Idx → EReal) (wd : SW.Idx → EReal) (m : Fin 8192) (n : Fin 4096) (q : ℕ) : EReal :=
  if h : q < 4096 then x (ix2 m ⟨q, h⟩) * wd (ix2 n ⟨q, h⟩) else 0

/-- The sum of the first `K` products. -/
def psum (x : SX.Idx → EReal) (wd : SW.Idx → EReal) (m : Fin 8192) (n : Fin 4096) (K : ℕ) : EReal :=
  ∑ q ∈ Finset.range K, term x wd m n q

theorem psum_zero (x : SX.Idx → EReal) (wd : SW.Idx → EReal) (m : Fin 8192) (n : Fin 4096) :
    psum x wd m n 0 = 0 := by
  unfold psum; rw [Finset.range_zero, Finset.sum_empty]

/-- One more slab of 512 products. -/
theorem psum_step (x : SX.Idx → EReal) (wd : SW.Idx → EReal) (m : Fin 8192) (n : Fin 4096) (k : ℕ) :
    psum x wd m n (512 * k + 512) = psum x wd m n (512 * k) + ∑ r : Fin 512, term x wd m n (512 * k + r.val) := by
  unfold psum
  rw [Finset.sum_range_add]
  exact congrArg _ (Finset.sum_range fun r => term x wd m n (512 * k + r))

/-- After all eight slabs the partial sum is the whole contraction. -/
theorem psum_full (x : SX.Idx → EReal) (wd : SW.Idx → EReal) (m : Fin 8192) (n : Fin 4096) :
    psum x wd m n 4096 = gemm x wd (ix2 m n) := by
  unfold psum gemm
  rw [Finset.sum_range]
  refine Finset.sum_congr rfl fun k _ => ?_
  unfold term
  rw [dif_pos k.isLt]

/-- A product inside the contracted extent, read without the guard. -/
theorem term_of_lt (x : SX.Idx → EReal) (wd : SW.Idx → EReal) (m : Fin 8192) (n : Fin 4096) (q : ℕ) (h : q < 4096) :
    term x wd m n q = x (ix2 m ⟨q, h⟩) * wd (ix2 n ⟨q, h⟩) := by
  unfold term; rw [dif_pos h]

end Cert.Spec

end
-- ==== Proof.SpecRows.lean ====
/-
  Rows and columns named by a natural number.

  A block's entry sits at "block index times block size plus the offset inside the block"; naming the row by that
  natural number reduced modulo the extent keeps every statement free of bound proofs, and inside the extent
  the reduction does nothing (`rowX_val`, `rowW_val`, `rowX_self`, `rowW_self`).
-/
import proofs.«134244_j1915555414610_2_alg».proof.Proof.Spec

noncomputable section

namespace Cert.Spec

open Idealize.ShloMosaic Idealize.ShloMosaic.ValueIdx

/-- Row `n` of `x` or of the result (extent 8192). -/
def rowX (n : ℕ) : Fin 8192 := ⟨n % 8192, Nat.mod_lt _ (by decide)⟩
/-- Row or column `n` of the weight, or column `n` of `x` or of the result (extent 4096). -/
def rowW (n : ℕ) : Fin 4096 := ⟨n % 4096, Nat.mod_lt _ (by decide)⟩

/-- Row or column `n` of the scale table (extent 32). -/
def rowS (n : ℕ) : Fin 32 := ⟨n % 32, Nat.mod_lt _ (by decide)⟩

theorem rowS_val (n : ℕ) (h : n < 32) : (rowS n).val = n := Nat.mod_eq_of_lt h

/-- The tile of a weight row or column named by a natural number inside the extent. -/
theorem tile_rowW (n : ℕ) (h : n < 4096) : tile (rowW n) = rowS (n / 128) :=
  Fin.ext (by show n % 4096 / 128 = n / 128 % 32; omega)

theorem rowX_val (n : ℕ) (h : n < 8192) : (rowX n).val = n := Nat.mod_eq_of_lt h
theorem rowW_val (n : ℕ) (h : n < 4096) : (rowW n).val = n := Nat.mod_eq_of_lt h
theorem rowX_self (m : Fin 8192) : rowX m.val = m := Fin.ext (Nat.mod_eq_of_lt m.isLt)
theorem rowW_self (m : Fin 4096) : rowW m.val = m := Fin.ext (Nat.mod_eq_of_lt m.isLt)

/-- A product inside the contracted extent, with its column named by the natural number. -/
theorem term_eq_rowW (x : SX.Idx → EReal) (wd : SW.Idx → EReal) (m : Fin 8192) (n : Fin 4096) (q : ℕ) (h : q < 4096) :
    term x wd m n q = x (ix2 m (rowW q)) * wd (ix2 n (rowW q)) := by
  rw [term_of_lt x wd m n q h]
  have e : (⟨q, h⟩ : Fin 4096) = rowW q := Fin.ext (rowW_val q h).symm
  rw [e]

end Cert.Spec

end
-- ==== Proof.GemmBlocks.lean ====
/-
  Where the matrix-product region's blocks sit in their arrays.

  The grid is 4 x 2 x 8, visited row-major, so point `t` has coordinates (t / 16, t / 8 % 2, t % 8): the block
  row of `x` and of the result, the block row of the dequantized weight (the block column of the result), and
  the slab of the contracted axis. A block's entry `y` is the array's entry at "block index times block size
  plus `y`" on each axis: rows 2048 (t / 16) + y₀ of `x`, rows 2048 (t / 8 % 2) + y₀ of the weight, columns
  512 (t % 8) + y₁ of both.
-/
import proofs.«134244_j1915555414610_2_alg».proof.Proof.Gen.KernelIdeal.Frame
import proofs.«134244_j1915555414610_2_alg».proof.Proof.SpecRows
import Idealize.ShloMosaic.Lib.Pipeline.Value
import Idealize.ShloMosaic.Lib.ValueIdx

set_option maxRecDepth 16384

noncomputable section

namespace Cert.KernelIdeal.GemmBlocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The three index maps at every grid point, decided over the 64 points. -/
theorem idx1 : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = t.val / 8 % 2 :=
  (by decide +kernel : ∀ t : Fin grid1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = t.val / 8 % 2)

theorem t_lt (t : Fin cfg1.N) : t.val < 64 := lt_of_lt_of_eq t.isLt (show cfg1.N = 64 from N_1)

/-- The block of `x` at point `t`, entry by entry. -/
theorem iblk_x (c : Dev nD) (t : Fin cfg1.N) (y : S2048x512.Idx) :
    (iblk1 V c 0 t : Vec F S2048x512 .f32) y
      = V c main_arg0 (ix2 (Spec.rowX (2048 * (t.val / 16) + (y 0).val)) (Spec.rowW (512 * (t.val % 8) + (y 1).val))) := by
  have ht := t_lt t
  have h0 : (y 0).val < 2048 := idx2_lt0 y
  have h1 : (y 1).val < 512 := idx2_lt1 y
  unfold iblk1
  rw [View.read_apply]
  show V c main_arg0 _ = V c main_arg0 _
  refine congrArg _ (funext fun a => Fin.ext ?_)
  match a with
  | ⟨0, _⟩ =>
    show win1_0.index t 0 * 2048 + 1 * (y 0).val = (2048 * (t.val / 16) + (y 0).val) % 8192
    rw [(idx1 t).1]; omega
  | ⟨1, _⟩ =>
    show win1_0.index t 1 * 512 + 1 * (y 1).val = (512 * (t.val % 8) + (y 1).val) % 4096
    rw [(idx1 t).2.1]; omega

/-- The block of the dequantized weight at point `t`, entry by entry. -/
theorem iblk_w (c : Dev nD) (t : Fin cfg1.N) (y : S2048x512.Idx) :
    (iblk1 V c 1 t : Vec F S2048x512 .bf16) y
      = V c main_v0 (ix2 (Spec.rowW (2048 * (t.val / 8 % 2) + (y 0).val)) (Spec.rowW (512 * (t.val % 8) + (y 1).val))) := by
  have ht := t_lt t
  have h0 : (y 0).val < 2048 := idx2_lt0 y
  have h1 : (y 1).val < 512 := idx2_lt1 y
  unfold iblk1
  rw [View.read_apply]
  show V c main_v0 _ = V c main_v0 _
  refine congrArg _ (funext fun a => Fin.ext ?_)
  match a with
  | ⟨0, _⟩ =>
    show win1_1.index t 0 * 2048 + 1 * (y 0).val = (2048 * (t.val / 8 % 2) + (y 0).val) % 4096
    rw [(idx1 t).2.2.1]; omega
  | ⟨1, _⟩ =>
    show win1_1.index t 1 * 512 + 1 * (y 1).val = (512 * (t.val % 8) + (y 1).val) % 4096
    rw [(idx1 t).2.2.2.1]; omega

/-- Any whole-array function read through the result's block at point `t`, entry by entry. -/
theorem blk_out (c : Dev nD) (t : Fin cfg1.N) (G : Buf (Elt F) ((c : Thread nD τ).loc main_v1)) (y : S2048x2048.Idx) :
    (((cfg1.win 2).blk t).view.read (Elt F) G : Vec F S2048x2048 .f32) y
      = G (ix2 (Spec.rowX (2048 * (t.val / 16) + (y 0).val)) (Spec.rowW (2048 * (t.val / 8 % 2) + (y 1).val))) := by
  have ht := t_lt t
  have h0 : (y 0).val < 2048 := idx2_lt0 y
  have h1 : (y 1).val < 2048 := idx2_lt1 y
  rw [View.read_apply]
  show G _ = G _
  refine congrArg _ (funext fun a => Fin.ext ?_)
  match a with
  | ⟨0, _⟩ =>
    show win1_2.index t 0 * 2048 + 1 * (y 0).val = (2048 * (t.val / 16) + (y 0).val) % 8192
    rw [(idx1 t).2.2.2.2.1]; omega
  | ⟨1, _⟩ =>
    show win1_2.index t 1 * 2048 + 1 * (y 1).val = (2048 * (t.val / 8 % 2) + (y 1).val) % 4096
    rw [(idx1 t).2.2.2.2.2]; omega

end Cert.KernelIdeal.GemmBlocks

end
-- ==== Proof.GemmBody.lean ====
/-
  The body of the k-blocked matrix product, read at an entry.

  Each grid step of the product region holds a 2048 x 512 slab of the activations, a 2048 x 512 slab of the
  dequantized weight, and the 2048 x 2048 block of the result accumulated so far. The first step over the
  contracted axis overwrites the block with zeros; every step then adds to the block the product of the two
  slabs, both contracted along their second axis: entry (a, b) gains the sum over r < 512 of
  activations[a, r] * weight[b, r]. On the extended reals the narrowing of the activations to the 16-bit format
  and the two shape casts to the same shape change nothing, and the product accumulates into the zero array,
  so the new block is exactly the old block plus that sum.
-/
import proofs.«134244_j1915555414610_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.GemmBody

open Idealize.ShloMosaic Idealize.ShloMosaic.TcCoe Cert.KernelIdeal Cert.KernelIdeal.Gen

/-- The block written before the first slab is zero everywhere. -/
theorem k1_pay1_apply (a b : Fin 2048) : Cert.KernelIdeal.Gen.k1_pay1 (F := Ideal) (ValueIdx.ix2 a b) = 0 := by
  unfold k1_pay1
  show Ideal.ofBits .f32 0x00000000#32 = 0
  exact Ideal.ofBits_zero_f32

/-- The left operand's free axis follows the result's row. -/
theorem lhs_row (i : S2048x2048.Idx) (q : dot_S2048x512_S2048x512_S2048x2048_1_1_0_0_n_n.contr.Idx) :
    (dot_S2048x512_S2048x512_S2048x2048_1_1_0_0_n_n.lhsIdx i q 0).val = (i 0).val := by
  unfold DotDims.lhsIdx
  rw [dif_neg (show ¬(0 : Fin S2048x512.rank) ∈ dot_S2048x512_S2048x512_S2048x2048_1_1_0_0_n_n.lhsBatch by decide), dif_pos (show (0 : Fin S2048x512.rank) ∈ dot_S2048x512_S2048x512_S2048x2048_1_1_0_0_n_n.lhsNonContracting by decide)]
  rfl

/-- The left operand's contracted axis follows the summation index. -/
theorem lhs_contr (i : S2048x2048.Idx) (q : dot_S2048x512_S2048x512_S2048x2048_1_1_0_0_n_n.contr.Idx) :
    (dot_S2048x512_S2048x512_S2048x2048_1_1_0_0_n_n.lhsIdx i q 1).val = (q ⟨0, by decide⟩).val :=
  dot_S2048x512_S2048x512_S2048x2048_1_1_0_0_n_n.lhsIdx_val_of_single rfl i q

/-- The right operand's free axis follows the result's column. -/
theorem rhs_row (i : S2048x2048.Idx) (q : dot_S2048x512_S2048x512_S2048x2048_1_1_0_0_n_n.contr.Idx) :
    (dot_S2048x512_S2048x512_S2048x2048_1_1_0_0_n_n.rhsIdx i q 0).val = (i 1).val := by
  unfold DotDims.rhsIdx
  rw [dif_neg (show ¬(0 : Fin S2048x512.rank) ∈ dot_S2048x512_S2048x512_S2048x2048_1_1_0_0_n_n.rhsBatch by decide), dif_pos (show (0 : Fin S2048x512.rank) ∈ dot_S2048x512_S2048x512_S2048x2048_1_1_0_0_n_n.rhsNonContracting by decide)]
  rfl

/-- The right operand's contracted axis follows the summation index. -/
theorem rhs_contr (i : S2048x2048.Idx) (q : dot_S2048x512_S2048x512_S2048x2048_1_1_0_0_n_n.contr.Idx) :
    (dot_S2048x512_S2048x512_S2048x2048_1_1_0_0_n_n.rhsIdx i q 1).val = (q ⟨0, by decide⟩).val :=
  dot_S2048x512_S2048x512_S2048x2048_1_1_0_0_n_n.rhsIdx_val_of_single rfl i q

/-- One slab's step: the new block is the old block plus, at (a, b), the sum over the slab's 512 columns of
    the activations' row a times the weight's row b. -/
theorem k1_pay2_apply (v3 : Vec Ideal S2048x512 .f32) (v5 : Vec Ideal S2048x512 .bf16) (v7 : Vec Ideal S2048x2048 .f32) (a b : Fin 2048) :
    Cert.KernelIdeal.Gen.k1_pay2 (F := Ideal) v3 v5 v7 (ValueIdx.ix2 a b)
      = v7 (ValueIdx.ix2 a b) + ∑ r : Fin 512, v3 (ValueIdx.ix2 a r) * v5 (ValueIdx.ix2 b r) := by
  unfold k1_pay2
  rw [ValueIdx.addf_apply, shapeCast_self, shapeCast_self]
  refine congrArg (v7 (ValueIdx.ix2 a b) + ·) ?_
  simp only [matmul]
  rw [Ideal.matmul_constant_zero_apply, ← Equiv.sum_comp (ValueIdx.contrEquiv1 dot_S2048x512_S2048x512_S2048x2048_1_1_0_0_n_n 512 rfl rfl).symm]
  refine Finset.sum_congr rfl fun r _ => ?_
  have hk := ValueIdx.contrEquiv1_symm_val dot_S2048x512_S2048x512_S2048x2048_1_1_0_0_n_n 512 rfl rfl r
  have el : dot_S2048x512_S2048x512_S2048x2048_1_1_0_0_n_n.lhsIdx (ValueIdx.ix2 a b) ((ValueIdx.contrEquiv1 dot_S2048x512_S2048x512_S2048x2048_1_1_0_0_n_n 512 rfl rfl).symm r) = ValueIdx.ix2 a r := funext fun c => Fin.ext (by
    match c with
    | ⟨0, _⟩ => exact lhs_row _ _
    | ⟨1, _⟩ => exact (lhs_contr _ _).trans hk)
  have er : dot_S2048x512_S2048x512_S2048x2048_1_1_0_0_n_n.rhsIdx (ValueIdx.ix2 a b) ((ValueIdx.contrEquiv1 dot_S2048x512_S2048x512_S2048x2048_1_1_0_0_n_n 512 rfl rfl).symm r) = ValueIdx.ix2 b r := funext fun c => Fin.ext (by
    match c with
    | ⟨0, _⟩ => exact rhs_row _ _
    | ⟨1, _⟩ => exact (rhs_contr _ _).trans hk)
  rw [el, er]
  rfl

end Cert.KernelIdeal.GemmBody

end
-- ==== Proof.GemmAcc.lean ====
/-
  The matrix-product region accumulates the contraction slab by slab.

  With `X` the array of `x` and `WD` the array of the dequantized weight as the region finds them, the output
  block after the body at grid point `n` holds, at its entry `y`, the sum of the first 512 (n % 8 + 1) products
  of row 2048 (n / 16) + y₀ of `X` with row 2048 (n / 8 % 2) + y₁ of `WD` (`acc`). By induction on the point:
  at the first point of a run along the contracted axis (n % 8 = 0) the body starts from the zero block, which
  is the empty partial sum; at any other point it adds one more slab to what the point before left, and the
  point before has the same two block rows and the slab before.
-/
import proofs.«134244_j1915555414610_2_alg».proof.Proof.GemmPieces
import proofs.«134244_j1915555414610_2_alg».proof.Proof.GemmBlocks
import proofs.«134244_j1915555414610_2_alg».proof.Proof.GemmBody

set_option maxRecDepth 16384

noncomputable section

namespace Cert.KernelIdeal.GemmAcc

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- `x` and the dequantized weight as the region finds them. -/
abbrev X (c : Dev nD) : Spec.SX.Idx → EReal := V c main_arg0
abbrev WD (c : Dev nD) : Spec.SW.Idx → EReal := V c main_v0

/-- The output block's entry `y` after the body at point `n`: the first 512 (n % 8 + 1) products. -/
def acc (c : Dev nD) (n : ℕ) (y : S2048x2048.Idx) : EReal :=
  Spec.psum (X V c) (WD V c) (Spec.rowX (2048 * (n / 16) + (y 0).val)) (Spec.rowW (2048 * (n / 8 % 2) + (y 1).val))
    (512 * (n % 8) + 512)

/-- One body at point `t` over the block `xo`: `xo` plus the point's slab of products. -/
theorem step (c : Dev nD) (t : Fin cfg1.N) (xo : Vec Ideal S2048x2048 .f32) (y : S2048x2048.Idx) :
    k1_pay2 (F := Ideal) (iblk1 V c 0 t) (iblk1 V c 1 t) xo y
      = xo y + ∑ r : Fin 512, Spec.term (X V c) (WD V c) (Spec.rowX (2048 * (t.val / 16) + (y 0).val))
          (Spec.rowW (2048 * (t.val / 8 % 2) + (y 1).val)) (512 * (t.val % 8) + r.val) := by
  have ht := GemmBlocks.t_lt t
  obtain ⟨a, b, rfl⟩ : ∃ (a b : Fin 2048), y = ix2 a b := ⟨y 0, y 1, eq_ix2 y⟩
  rw [GemmBody.k1_pay2_apply]
  refine congrArg _ (Finset.sum_congr rfl fun r _ => ?_)
  rw [GemmBlocks.iblk_x V c t (ix2 a r), GemmBlocks.iblk_w V c t (ix2 b r),
    Spec.term_eq_rowW _ _ _ _ _ (by have := r.isLt; omega)]

/-- The first point of a run: from the zero block, the first slab. -/
theorem caseA (c : Dev nD) (t : Fin cfg1.N) (h0 : t.val % 8 = 0) :
    k1_pay2 (F := Ideal) (iblk1 V c 0 t) (iblk1 V c 1 t) (k1_pay1 (F := Ideal)) = acc V c t.val := by
  funext y
  rw [step V c t]
  obtain ⟨a, b, rfl⟩ : ∃ (a b : Fin 2048), y = ix2 a b := ⟨y 0, y 1, eq_ix2 y⟩
  rw [GemmBody.k1_pay1_apply]
  unfold acc
  rw [h0, Spec.psum_step, Nat.mul_zero, Spec.psum_zero]

/-- Any other point: one more slab on what the point before left; the point before has the same block rows. -/
theorem caseB (c : Dev nD) (t : Fin cfg1.N) (h0 : ¬t.val % 8 = 0) :
    k1_pay2 (F := Ideal) (iblk1 V c 0 t) (iblk1 V c 1 t) (acc V c (t.val - 1)) = acc V c t.val := by
  have ht := GemmBlocks.t_lt t
  funext y
  rw [step V c t]
  unfold acc
  have e1 : (t.val - 1) / 16 = t.val / 16 := by omega
  have e2 : (t.val - 1) / 8 % 2 = t.val / 8 % 2 := by omega
  have e3 : 512 * ((t.val - 1) % 8) + 512 = 512 * (t.val % 8) := by omega
  rw [e1, e2, e3, Spec.psum_step]

/-- What the output's staging buffer holds after each point is the partial sum. -/
theorem outsAt_eq (c : Dev nD) : ∀ (n : ℕ) (h : n < cfg1.N), outsAt1 V c n h = acc V c n
  | 0, h => (outsAt1_A V c ⟨0, h⟩ rfl).trans ((GemmPieces.out_A ..).trans (caseA V c ⟨0, h⟩ rfl))
  | n + 1, h => by
    by_cases h0 : (n + 1) % 8 = 0
    · rw [outsAt1_A V c ⟨n + 1, h⟩ h0, GemmPieces.out_A]
      exact caseA V c ⟨n + 1, h⟩ h0
    · rw [outsAt1_B V c ⟨n + 1, h⟩ h0, GemmPieces.out_B]
      show k1_pay2 (F := Ideal) _ _ (outsAt1 V c n _) = _
      rw [outsAt_eq c n]
      exact caseB V c ⟨n + 1, h⟩ h0

end Cert.KernelIdeal.GemmAcc

end
-- ==== Proof.GemmFinal.lean ====
/-
  The result array after the matrix-product region.

  The output block of grid point `t` is written back exactly at the last point of each run along the contracted
  axis (t % 8 = 7). There the accumulated partial sum has all 4096 products, so what is written back is the
  block of `gemm X WD` at block row t / 16 and block column t / 8 % 2. The 4 x 2 blocks of 2048 x 2048 tile the
  8192 x 4096 array: entry (r, s) lies in the block written back at point 16 (r / 2048) + 8 (s / 2048) + 7. So
  the array ends holding `gemm X WD`.
-/
import proofs.«134244_j1915555414610_2_alg».proof.Proof.GemmAcc

set_option maxRecDepth 16384

noncomputable section

namespace Cert.KernelIdeal.GemmFinal

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.GemmAcc (X WD acc)

variable (V : (c : Dev nD) → (b : Ref sig .tc) → Buf (Elt Ideal) ((c : Thread nD τ).loc b))

/-- The whole-array function the region's write-backs are blocks of. -/
abbrev G (c : Dev nD) : Buf (Elt Ideal) ((c : Thread nD τ).loc main_v1) := Spec.gemm (X V c) (WD V c)

/-- What a write-back writes is the block of `gemm X WD` at that point. -/
theorem flushed_eq (c : Dev nD) (t : Fin cfg1.N) (hf : (cfg1.win 2).flush t = true) :
    (dat1 V c).flushed 2 t = ((cfg1.win 2).blk t).view.read (Elt Ideal) (G V c) := by
  have h7 : t.val % 8 = 7 := (flush1_2 t).mp hf
  funext y
  show ((dat1 V c).after 2 t) ((cfg1.win 2).xinj (grid1.coords t) y) = _
  rw [after1_2, GemmAcc.outsAt_eq, GemmBlocks.blk_out]
  show Spec.psum _ _ (Spec.rowX (2048 * (t.val / 16) + (y 0).val)) (Spec.rowW (2048 * (t.val / 8 % 2) + (y 1).val)) (512 * (t.val % 8) + 512)
    = Spec.gemm _ _ (ix2 (Spec.rowX (2048 * (t.val / 16) + (y 0).val)) (Spec.rowW (2048 * (t.val / 8 % 2) + (y 1).val)))
  rw [h7, show 512 * 7 + 512 = 4096 from rfl, Spec.psum_full]

/-- An entry of the array is in point `t`'s block iff each coordinate is in the block's range on its axis. -/
theorem mem_blk (t : Fin cfg1.N) (i : S8192x4096.Idx) :
    i ∈ ((cfg1.win 2).blk t).view.set ↔ ∀ a : Fin 2, win1_2.index t a * S2048x2048.size a ≤ (i a).val
      ∧ (i a).val < win1_2.index t a * S2048x2048.size a + S2048x2048.size a := by
  show i ∈ ((View.whole main_v1).slice (win1_2.rect t)).set ↔ _
  rw [View.set_slice_whole, Rect.mem_set_unit]
  exact Iff.rfl

/-- Every entry of the array is in the block of some point that writes back. -/
theorem cover (i : S8192x4096.Idx) :
    ∃ t : Fin cfg1.N, (cfg1.win 2).flush t = true ∧ i ∈ ((cfg1.win 2).blk t).view.set := by
  have hN : cfg1.N = 64 := N_1
  have hi0 : (i 0).val < 8192 := idx2_lt0 i
  have hi1 : (i 1).val < 4096 := idx2_lt1 i
  let t : Fin cfg1.N := ⟨16 * ((i 0).val / 2048) + 8 * ((i 1).val / 2048) + 7, by rw [hN]; omega⟩
  have htv : t.val = 16 * ((i 0).val / 2048) + 8 * ((i 1).val / 2048) + 7 := rfl
  refine ⟨t, (flush1_2 t).mpr (by rw [htv]; omega), ?_⟩
  rw [mem_blk]
  obtain ⟨-, -, -, -, e4, e5⟩ := GemmBlocks.idx1 t
  intro a
  match a with
  | ⟨0, _⟩ =>
    show win1_2.index t (0 : Fin 2) * 2048 ≤ (i 0).val ∧ (i 0).val < win1_2.index t (0 : Fin 2) * 2048 + 2048
    rw [e4, htv]; omega
  | ⟨1, _⟩ =>
    show win1_2.index t (1 : Fin 2) * 2048 ≤ (i 1).val ∧ (i 1).val < win1_2.index t (1 : Fin 2) * 2048 + 2048
    rw [e5, htv]; omega

/-- The result array after the region: `x` times the transpose of the dequantized weight, as the region found them. -/
theorem final (c : Dev nD) : (dat1 V c).arrAt 2 cfg1.N = G V c :=
  (dat1 V c).arrAt_eq_of_cover 2 (G V c) (flushed_eq V c) (cover)

end Cert.KernelIdeal.GemmFinal

end
-- ==== Proof.DeqBody.lean ====
import proofs.«134244_j1915555414610_2_alg».proof.Proof.Gen.KernelIdeal.Frame
import Idealize.ShloMosaic.Lib.ValueIdx
import Idealize.ShloMosaic.Lib.Pipeline.Value
import Idealize.ShloMosaic.PureOps.Ideal.Laws

/-!
# The dequantize body at an index

The body forms two 0/1 selector matrices from coordinate numbers and an integer floor division by 128:
`er` (1024 x 8) has a one at `(p, c)` exactly when `p / 128 = c`, and `ec` (32 x 4096) has a one at `(c', q)`
exactly when `q / 128 = c'`. It then stores `x0 * (er @ x1 @ ec)`. Every row of `er` and every column of `ec`
holds exactly one `1`, so on the extended reals each of the two contractions collapses to a single term and
entry `(p, q)` of the stored block is `x0[p, q] * x1[p / 128, q / 128]`.
-/

noncomputable section

namespace Cert.KernelIdeal.DeqBody

open Idealize.ShloMosaic Idealize.ShloMosaic.TcCoe Cert.KernelIdeal Cert.KernelIdeal.Gen
open Idealize.ShloMosaic.ValueIdx
open scoped BigOperators

/-! ## The integer floor division by 128 on a coordinate number -/

/-- The printed floor division of a word `x` by `128`: the quotient rounded toward zero, lowered by one exactly
    when the signs of dividend and divisor differ and the remainder is not zero. -/
def floorDivWord (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 128#32 0#32)) (Scalar.extui (Scalar.cmpi .slt 128#32 0#32))))
      (IntOp.cmpi .ne (IntOp.remsi .vector x 128#32) 0#32))
    (IntOp.subi (IntOp.divsi .vector x 128#32) 1#32)
    (IntOp.divsi .vector x 128#32)

/-- On the word of a natural number below 4096 the printed floor division is the natural quotient: the dividend is
    not negative, so the correction never applies. Checked on each of the 4096 words. -/
theorem floorDivWord_fin : ∀ n : Fin 4096, floorDivWord (BitVec.ofNat 32 n.val) = BitVec.ofNat 32 (n.val / 128) := by
  decide +kernel

/-- The same, over a natural number with its bound. -/
theorem floorDivWord_ofNat (n : Nat) (hn : n < 4096) :
    floorDivWord (BitVec.ofNat 32 n) = BitVec.ofNat 32 (n / 128) :=
  floorDivWord_fin ⟨n, hn⟩

/-- The equality test of two words of naturals below 2^32, zero-extended and converted to an extended real, is the
    indicator of the equality of the naturals. -/
theorem eqBit_toReal (a b : Nat) (ha : a < 2 ^ 32) (hb : b < 2 ^ 32) :
    (FloatOps.sitofp .f32 ((IntOp.cmpi .eq (BitVec.ofNat 32 a) (BitVec.ofNat 32 b)).setWidth 32) : Ideal .f32)
      = if a = b then 1 else 0 := by
  show ((((IntOp.cmpi .eq (BitVec.ofNat 32 a) (BitVec.ofNat 32 b)).setWidth 32).toInt : ℝ) : EReal) = _
  by_cases h : a = b
  · subst h
    rw [if_pos rfl]
    have e : (IntOp.cmpi .eq (BitVec.ofNat 32 a) (BitVec.ofNat 32 a)).setWidth 32 = 1#32 := by
      simp [IntOp.cmpi]
    rw [e]
    norm_num
  · rw [if_neg h]
    have hne : ¬ BitVec.ofNat 32 a = BitVec.ofNat 32 b := by
      intro e
      apply h
      have := congrArg BitVec.toNat e
      simp only [BitVec.toNat_ofNat] at this
      omega
    have hbeq : (BitVec.ofNat 32 a == BitVec.ofNat 32 b) = false := beq_eq_false_iff_ne.mpr hne
    have e : (IntOp.cmpi .eq (BitVec.ofNat 32 a) (BitVec.ofNat 32 b)).setWidth 32 = 0#32 := by
      simp [IntOp.cmpi, hbeq]
    rw [e]
    norm_num

/-! ## The two selector matrices at an index -/

/-- The row selector reads, at `(p, c)`, the indicator of `p / 128 = c`. -/
theorem rowSel_apply (p : Fin 1024) (c : Fin 8) :
    k0_pay2 (F := Ideal) (ix2 p c) = if p.val / 128 = c.val then 1 else 0 := by
  have h0 : iota .tc S1024x8 32 [0] iota_S1024x8_d0_w32 (ix2 p c) = BitVec.ofNat 32 p.val :=
    iota_single_apply _ _ _ _ _ _
  have h1 : iota .tc S1024x8 32 [1] iota_S1024x8_d1_w32 (ix2 p c) = BitVec.ofNat 32 c.val :=
    iota_single_apply _ _ _ _ _ _
  have hp : p.val < 4096 := by have := p.isLt; omega
  have key : k0_pay2 (F := Ideal) (ix2 p c)
      = FloatOps.sitofp .f32 ((IntOp.cmpi .eq
          (floorDivWord (iota .tc S1024x8 32 [0] iota_S1024x8_d0_w32 (ix2 p c)))
          (iota .tc S1024x8 32 [1] iota_S1024x8_d1_w32 (ix2 p c))).setWidth 32) := rfl
  rw [key, h0, h1, floorDivWord_ofNat _ hp]
  exact eqBit_toReal _ _ (by have := p.isLt; omega) (by have := c.isLt; omega)

/-- The column selector the body builds: the 32 x 4096 matrix of the equality test of the row number with the
    floor quotient of the column number by 128. -/
def colSel : FVec Ideal S32x4096 .f32 :=
  sitofp .f32 (extui 32 (cmpi .eq (iota .tc S32x4096 32 [0] iota_S32x4096_d0_w32)
    (select
      (andi
        (cmpi .ne k0_pay4 (broadcast S32x4096 (Scalar.subi (Scalar.extui (Scalar.cmpi .sgt 128#32 0#32)) (Scalar.extui (Scalar.cmpi .slt 128#32 0#32)))))
        (cmpi .ne (remsi (iota .tc S32x4096 32 [1] iota_S32x4096_d1_w32) (broadcast S32x4096 128#32)) (broadcast S32x4096 0#32)))
      (subi k0_pay3 (broadcast S32x4096 1#32))
      k0_pay3)) natLt_1_32)

/-- The column selector reads, at `(c, q)`, the indicator of `q / 128 = c`. -/
theorem colSel_apply (c : Fin 32) (q : Fin 4096) :
    colSel (ix2 c q) = if q.val / 128 = c.val then 1 else 0 := by
  have h0 : iota .tc S32x4096 32 [0] iota_S32x4096_d0_w32 (ix2 c q) = BitVec.ofNat 32 c.val :=
    iota_single_apply _ _ _ _ _ _
  have h1 : iota .tc S32x4096 32 [1] iota_S32x4096_d1_w32 (ix2 c q) = BitVec.ofNat 32 q.val :=
    iota_single_apply _ _ _ _ _ _
  have key : colSel (ix2 c q)
      = FloatOps.sitofp .f32 ((IntOp.cmpi .eq
          (iota .tc S32x4096 32 [0] iota_S32x4096_d0_w32 (ix2 c q))
          (floorDivWord (iota .tc S32x4096 32 [1] iota_S32x4096_d1_w32 (ix2 c q)))).setWidth 32) := rfl
  rw [key, h0, h1, floorDivWord_ofNat _ q.isLt]
  rw [eqBit_toReal _ _ (by have := c.isLt; omega) (by have := q.isLt; omega)]
  exact if_congr eq_comm rfl rfl

/-! ## The two contractions at an index -/

/-- The first contraction's operand indices at output index `i` and middle index `k`: the left operand is read at
    `(i 0, k)` and the right operand at `(k, i 1)` (the next four statements, one coordinate each). -/
theorem lhs1_0 (i : S1024x32.Idx) (k : dot_S1024x8_S8x32_S1024x32_1_0_0_1_n_n.contr.Idx) :
    (dot_S1024x8_S8x32_S1024x32_1_0_0_1_n_n.lhsIdx i k 0).val = (i 0).val := by
  unfold DotDims.lhsIdx
  rw [dif_neg (show ¬(0 : Fin S1024x8.rank) ∈ dot_S1024x8_S8x32_S1024x32_1_0_0_1_n_n.lhsBatch by decide),
    dif_pos (show (0 : Fin S1024x8.rank) ∈ dot_S1024x8_S8x32_S1024x32_1_0_0_1_n_n.lhsNonContracting by decide)]
  rfl
theorem lhs1_1 (i : S1024x32.Idx) (k : dot_S1024x8_S8x32_S1024x32_1_0_0_1_n_n.contr.Idx) :
    (dot_S1024x8_S8x32_S1024x32_1_0_0_1_n_n.lhsIdx i k 1).val = (k ⟨0, by decide⟩).val :=
  dot_S1024x8_S8x32_S1024x32_1_0_0_1_n_n.lhsIdx_val_of_single rfl i k
theorem rhs1_0 (i : S1024x32.Idx) (k : dot_S1024x8_S8x32_S1024x32_1_0_0_1_n_n.contr.Idx) :
    (dot_S1024x8_S8x32_S1024x32_1_0_0_1_n_n.rhsIdx i k 0).val = (k ⟨0, by decide⟩).val :=
  dot_S1024x8_S8x32_S1024x32_1_0_0_1_n_n.rhsIdx_val_of_single rfl i k
theorem rhs1_1 (i : S1024x32.Idx) (k : dot_S1024x8_S8x32_S1024x32_1_0_0_1_n_n.contr.Idx) :
    (dot_S1024x8_S8x32_S1024x32_1_0_0_1_n_n.rhsIdx i k 1).val = (i 1).val := by
  unfold DotDims.rhsIdx
  rw [dif_neg (show ¬(1 : Fin S8x32.rank) ∈ dot_S1024x8_S8x32_S1024x32_1_0_0_1_n_n.rhsBatch by decide),
    dif_pos (show (1 : Fin S8x32.rank) ∈ dot_S1024x8_S8x32_S1024x32_1_0_0_1_n_n.rhsNonContracting by decide)]
  rfl

/-- The first contraction (1024 x 8 by 8 x 32, zero accumulator) at `(p, c')`: the sum over the 8 middle indices. -/
theorem matmul1_apply (er : FVec Ideal S1024x8 .f32) (x1 : FVec Ideal S8x32 .f32) (p : Fin 1024) (c' : Fin 32) :
    matmul dot_S1024x8_S8x32_S1024x32_1_0_0_1_n_n none er x1 (constant (F := Ideal) S1024x32 .f32 0x00000000#32) (ix2 p c')
      = ∑ c : Fin 8, er (ix2 p c) * x1 (ix2 c c') := by
  simp only [matmul]
  rw [Ideal.matmul_constant_zero_apply,
    ← Equiv.sum_comp (contrEquiv1 dot_S1024x8_S8x32_S1024x32_1_0_0_1_n_n 8 rfl rfl).symm]
  refine Finset.sum_congr rfl fun k _ => ?_
  have hk := contrEquiv1_symm_val dot_S1024x8_S8x32_S1024x32_1_0_0_1_n_n 8 rfl rfl k
  have el : dot_S1024x8_S8x32_S1024x32_1_0_0_1_n_n.lhsIdx (ix2 p c')
      ((contrEquiv1 dot_S1024x8_S8x32_S1024x32_1_0_0_1_n_n 8 rfl rfl).symm k) = ix2 p k :=
    funext fun a => Fin.ext (by
      match a with
      | ⟨0, _⟩ => exact lhs1_0 _ _
      | ⟨1, _⟩ => exact (lhs1_1 _ _).trans hk)
  have er' : dot_S1024x8_S8x32_S1024x32_1_0_0_1_n_n.rhsIdx (ix2 p c')
      ((contrEquiv1 dot_S1024x8_S8x32_S1024x32_1_0_0_1_n_n 8 rfl rfl).symm k) = ix2 k c' :=
    funext fun a => Fin.ext (by
      match a with
      | ⟨0, _⟩ => exact (rhs1_0 _ _).trans hk
      | ⟨1, _⟩ => exact rhs1_1 _ _)
  rw [el, er']

/-- The second contraction's operand indices at output index `i` and middle index `k`: the left operand is read at
    `(i 0, k)` and the right operand at `(k, i 1)` (the next four statements, one coordinate each). -/
theorem lhs2_0 (i : S1024x4096.Idx) (k : dot_S1024x32_S32x4096_S1024x4096_1_0_0_1_n_n.contr.Idx) :
    (dot_S1024x32_S32x4096_S1024x4096_1_0_0_1_n_n.lhsIdx i k 0).val = (i 0).val := by
  unfold DotDims.lhsIdx
  rw [dif_neg (show ¬(0 : Fin S1024x32.rank) ∈ dot_S1024x32_S32x4096_S1024x4096_1_0_0_1_n_n.lhsBatch by decide),
    dif_pos (show (0 : Fin S1024x32.rank) ∈ dot_S1024x32_S32x4096_S1024x4096_1_0_0_1_n_n.lhsNonContracting by decide)]
  rfl
theorem lhs2_1 (i : S1024x4096.Idx) (k : dot_S1024x32_S32x4096_S1024x4096_1_0_0_1_n_n.contr.Idx) :
    (dot_S1024x32_S32x4096_S1024x4096_1_0_0_1_n_n.lhsIdx i k 1).val = (k ⟨0, by decide⟩).val :=
  dot_S1024x32_S32x4096_S1024x4096_1_0_0_1_n_n.lhsIdx_val_of_single rfl i k
theorem rhs2_0 (i : S1024x4096.Idx) (k : dot_S1024x32_S32x4096_S1024x4096_1_0_0_1_n_n.contr.Idx) :
    (dot_S1024x32_S32x4096_S1024x4096_1_0_0_1_n_n.rhsIdx i k 0).val = (k ⟨0, by decide⟩).val :=
  dot_S1024x32_S32x4096_S1024x4096_1_0_0_1_n_n.rhsIdx_val_of_single rfl i k
theorem rhs2_1 (i : S1024x4096.Idx) (k : dot_S1024x32_S32x4096_S1024x4096_1_0_0_1_n_n.contr.Idx) :
    (dot_S1024x32_S32x4096_S1024x4096_1_0_0_1_n_n.rhsIdx i k 1).val = (i 1).val := by
  unfold DotDims.rhsIdx
  rw [dif_neg (show ¬(1 : Fin S32x4096.rank) ∈ dot_S1024x32_S32x4096_S1024x4096_1_0_0_1_n_n.rhsBatch by decide),
    dif_pos (show (1 : Fin S32x4096.rank) ∈ dot_S1024x32_S32x4096_S1024x4096_1_0_0_1_n_n.rhsNonContracting by decide)]
  rfl

/-- The second contraction (1024 x 32 by 32 x 4096, zero accumulator) at `(p, q)`: the sum over the 32 middle
    indices. -/
theorem matmul2_apply (t : FVec Ideal S1024x32 .f32) (ec : FVec Ideal S32x4096 .f32) (p : Fin 1024) (q : Fin 4096) :
    matmul dot_S1024x32_S32x4096_S1024x4096_1_0_0_1_n_n none t ec (constant (F := Ideal) S1024x4096 .f32 0x00000000#32) (ix2 p q)
      = ∑ c' : Fin 32, t (ix2 p c') * ec (ix2 c' q) := by
  simp only [matmul]
  rw [Ideal.matmul_constant_zero_apply,
    ← Equiv.sum_comp (contrEquiv1 dot_S1024x32_S32x4096_S1024x4096_1_0_0_1_n_n 32 rfl rfl).symm]
  refine Finset.sum_congr rfl fun k _ => ?_
  have hk := contrEquiv1_symm_val dot_S1024x32_S32x4096_S1024x4096_1_0_0_1_n_n 32 rfl rfl k
  have el : dot_S1024x32_S32x4096_S1024x4096_1_0_0_1_n_n.lhsIdx (ix2 p q)
      ((contrEquiv1 dot_S1024x32_S32x4096_S1024x4096_1_0_0_1_n_n 32 rfl rfl).symm k) = ix2 p k :=
    funext fun a => Fin.ext (by
      match a with
      | ⟨0, _⟩ => exact lhs2_0 _ _
      | ⟨1, _⟩ => exact (lhs2_1 _ _).trans hk)
  have er' : dot_S1024x32_S32x4096_S1024x4096_1_0_0_1_n_n.rhsIdx (ix2 p q)
      ((contrEquiv1 dot_S1024x32_S32x4096_S1024x4096_1_0_0_1_n_n 32 rfl rfl).symm k) = ix2 k q :=
    funext fun a => Fin.ext (by
      match a with
      | ⟨0, _⟩ => exact (rhs2_0 _ _).trans hk
      | ⟨1, _⟩ => exact rhs2_1 _ _)
  rw [el, er']

/-! ## The stored block at an index -/

/-- The zero offsets of a whole-block access, as the constant function. -/
theorem hz : (![0, 0] : Fin 2 → Nat) = fun _ => 0 := funext fun a => by fin_cases a <;> rfl

/-- A sum against the row selector keeps the one term at `p / 128`. -/
theorem sum_rowSel (p : Fin 1024) (f : Fin 8 → EReal) :
    ∑ c : Fin 8, k0_pay2 (F := Ideal) (ix2 p c) * f c = f ⟨p.val / 128, by have := p.isLt; omega⟩ := by
  rw [Finset.sum_eq_single (⟨p.val / 128, by have := p.isLt; omega⟩ : Fin 8)]
  · rw [rowSel_apply, if_pos rfl, one_mul]
  · intro c _ hc
    rw [rowSel_apply, if_neg (fun e => hc (Fin.ext e.symm)), zero_mul]
  · intro h; exact absurd (Finset.mem_univ _) h

/-- A sum against the column selector keeps the one term at `q / 128`. -/
theorem sum_colSel (q : Fin 4096) (f : Fin 32 → EReal) :
    ∑ c : Fin 32, f c * colSel (ix2 c q) = f ⟨q.val / 128, by have := q.isLt; omega⟩ := by
  rw [Finset.sum_eq_single (⟨q.val / 128, by have := q.isLt; omega⟩ : Fin 32)]
  · rw [colSel_apply, if_pos rfl, mul_one]
  · intro c _ hc
    rw [colSel_apply, if_neg (fun e => hc (Fin.ext e.symm)), mul_zero]
  · intro h; exact absurd (Finset.mem_univ _) h

/-- Entry `(p, q)` of the block the body stores is `x0[p, q] * x1[p / 128, q / 128]`. -/
theorem out0_2_apply (x0 : Vec Ideal S1024x4096 .f32) (x1 : Vec Ideal S8x32 .f32) (p : Fin 1024) (q : Fin 4096) :
    Cert.KernelIdeal.Gen.out0_2 (F := Ideal) x0 x1 (ValueIdx.ix2 p q)
      = x0 (ValueIdx.ix2 p q) * x1 (ValueIdx.ix2 ⟨p.val / 128, by have := p.isLt; omega⟩ ⟨q.val / 128, by have := q.isLt; omega⟩) := by
  unfold out0_2
  rw [View.canon_unit_zero hz]
  simp only [View.ld_unit_zero (S := S8x32) hz, View.ld_unit_zero (S := S1024x4096) hz]
  have key : k0_pay1 (F := Ideal) x1 (k0_pay2 (F := Ideal)) (iota .tc S32x4096 32 [0] iota_S32x4096_d0_w32)
        (iota .tc S32x4096 32 [1] iota_S32x4096_d1_w32) 128#32 k0_pay3 k0_pay4
        (Scalar.extui (Scalar.cmpi .sgt 128#32 0#32)) (Scalar.extui (Scalar.cmpi .slt 128#32 0#32)) x0 (ix2 p q)
      = x0 (ix2 p q) * matmul dot_S1024x32_S32x4096_S1024x4096_1_0_0_1_n_n none
          (matmul dot_S1024x8_S8x32_S1024x32_1_0_0_1_n_n none (k0_pay2 (F := Ideal)) x1
            (constant (F := Ideal) S1024x32 .f32 0x00000000#32))
          colSel (constant (F := Ideal) S1024x4096 .f32 0x00000000#32) (ix2 p q) := rfl
  rw [key, matmul2_apply]
  simp only [matmul1_apply]
  rw [sum_colSel q (fun c' => ∑ c : Fin 8, k0_pay2 (F := Ideal) (ix2 p c) * x1 (ix2 c c'))]
  rw [sum_rowSel p (fun c => x1 (ix2 c ⟨q.val / 128, by have := q.isLt; omega⟩))]

end Cert.KernelIdeal.DeqBody

end
-- ==== Proof.DeqFinal.lean ====
/-
  The dequantized weight's array after the first region.

  The grid has 4 points; point `t` takes rows 1024 t … 1024 t + 1023 of the weight (all 4096 columns), rows
  8 t … 8 t + 7 of the 32 x 32 scale table (all 32 columns), and writes back rows 1024 t … of the output. The
  body leaves, at the block's entry (p, q), the weight's entry times the scale block's entry (p / 128, q / 128);
  in the arrays that is `w[1024 t + p, q] * s[8 t + p / 128, q / 128]`, and (1024 t + p) / 128 = 8 t + p / 128, so
  every write-back is a block of `deq w s`. The four blocks of 1024 rows tile the array: row r lies in the block
  of point r / 1024.
-/
import proofs.«134244_j1915555414610_2_alg».proof.Proof.Gen.KernelIdeal.Frame
import proofs.«134244_j1915555414610_2_alg».proof.Proof.SpecRows
import proofs.«134244_j1915555414610_2_alg».proof.Proof.DeqBody
import Idealize.ShloMosaic.Lib.Pipeline.Value
import Idealize.ShloMosaic.Lib.ValueIdx

set_option maxRecDepth 16384

noncomputable section

namespace Cert.KernelIdeal.DeqFinal

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three index maps at every grid point, decided over the 4 points. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

theorem t_lt (t : Fin cfg0.N) : t.val < 4 := lt_of_lt_of_eq t.isLt (show cfg0.N = 4 from N_0)

/-- The weight's block at point `t`, entry by entry. -/
theorem iblk_w (c : Dev nD) (t : Fin cfg0.N) (y : S1024x4096.Idx) :
    (iblk0 V c 0 t : Vec Ideal S1024x4096 .f32) y
      = V c main_arg1 (ix2 (Spec.rowW (1024 * t.val + (y 0).val)) (Spec.rowW (y 1).val)) := by
  have ht := t_lt t
  have h0 : (y 0).val < 1024 := idx2_lt0 y
  have h1 : (y 1).val < 4096 := idx2_lt1 y
  unfold iblk0
  rw [View.read_apply]
  show V c main_arg1 _ = V c main_arg1 _
  refine congrArg _ (funext fun a => Fin.ext ?_)
  match a with
  | ⟨0, _⟩ =>
    show win0_0.index t 0 * 1024 + 1 * (y 0).val = (1024 * t.val + (y 0).val) % 4096
    rw [(idx0 t).1]; omega
  | ⟨1, _⟩ =>
    show win0_0.index t 1 * 4096 + 1 * (y 1).val = (y 1).val % 4096
    rw [(idx0 t).2.1]; omega

/-- The scale table's block at point `t`, entry by entry. -/
theorem iblk_s (c : Dev nD) (t : Fin cfg0.N) (y : S8x32.Idx) :
    (iblk0 V c 1 t : Vec Ideal S8x32 .f32) y
      = V c main_arg2 (ix2 (Spec.rowS (8 * t.val + (y 0).val)) (Spec.rowS (y 1).val)) := by
  have ht := t_lt t
  have h0 : (y 0).val < 8 := idx2_lt0 y
  have h1 : (y 1).val < 32 := idx2_lt1 y
  unfold iblk0
  rw [View.read_apply]
  show V c main_arg2 _ = V c main_arg2 _
  refine congrArg _ (funext fun a => Fin.ext ?_)
  match a with
  | ⟨0, _⟩ =>
    show win0_1.index t 0 * 8 + 1 * (y 0).val = (8 * t.val + (y 0).val) % 32
    rw [(idx0 t).2.2.1]; omega
  | ⟨1, _⟩ =>
    show win0_1.index t 1 * 32 + 1 * (y 1).val = (y 1).val % 32
    rw [(idx0 t).2.2.2.1]; omega

/-- Any whole-array function read through the output's block at point `t`, entry by entry. -/
theorem blk_out (c : Dev nD) (t : Fin cfg0.N) (G : Buf (Elt Ideal) ((c : Thread nD τ).loc main_v0)) (y : S1024x4096.Idx) :
    (((cfg0.win 2).blk t).view.read (Elt Ideal) G : Vec Ideal S1024x4096 .bf16) y
      = G (ix2 (Spec.rowW (1024 * t.val + (y 0).val)) (Spec.rowW (y 1).val)) := by
  have ht := t_lt t
  have h0 : (y 0).val < 1024 := idx2_lt0 y
  have h1 : (y 1).val < 4096 := idx2_lt1 y
  rw [View.read_apply]
  show G _ = G _
  refine congrArg _ (funext fun a => Fin.ext ?_)
  match a with
  | ⟨0, _⟩ =>
    show win0_2.index t 0 * 1024 + 1 * (y 0).val = (1024 * t.val + (y 0).val) % 4096
    rw [(idx0 t).2.2.2.2.1]; omega
  | ⟨1, _⟩ =>
    show win0_2.index t 1 * 4096 + 1 * (y 1).val = (y 1).val % 4096
    rw [(idx0 t).2.2.2.2.2]; omega

/-- The weight and the scale table as the region finds them. -/
abbrev Wt (c : Dev nD) : Spec.SW.Idx → EReal := V c main_arg1
abbrev Sc (c : Dev nD) : Spec.SS.Idx → EReal := V c main_arg2

/-- The whole-array function the region's write-backs are blocks of. -/
abbrev G (c : Dev nD) : Buf (Elt Ideal) ((c : Thread nD τ).loc main_v0) := Spec.deq (Wt V c) (Sc V c)

/-- What point `t` writes back is block `t` of the dequantized weight. -/
theorem flushed_eq (c : Dev nD) (t : Fin cfg0.N) :
    (dat0 V c).flushed 2 t = ((cfg0.win 2).blk t).view.read (Elt Ideal) (G V c) := by
  have ht := t_lt t
  funext y
  show ((dat0 V c).after 2 t) ((cfg0.win 2).xinj (grid0.coords t) y) = _
  rw [after0_2, blk_out]
  obtain ⟨p, q, hj⟩ : ∃ (p : Fin 1024) (q : Fin 4096), (cfg0.win 2).xinj (grid0.coords t) y = ix2 p q :=
    ⟨_, _, eq_ix2 _⟩
  have hp : (y 0).val = p.val := congrArg Fin.val (congrFun hj 0)
  have hq : (y 1).val = q.val := congrArg Fin.val (congrFun hj 1)
  rw [hj, DeqBody.out0_2_apply, iblk_w, iblk_s, hp, hq]
  show Wt V c (ix2 (Spec.rowW (1024 * t.val + p.val)) (Spec.rowW q.val))
      * Sc V c (ix2 (Spec.rowS (8 * t.val + p.val / 128)) (Spec.rowS (q.val / 128)))
    = Wt V c (ix2 (Spec.rowW (1024 * t.val + p.val)) (Spec.rowW q.val))
      * Sc V c (ix2 (Spec.tile (Spec.rowW (1024 * t.val + p.val))) (Spec.tile (Spec.rowW q.val)))
  have hpl := p.isLt
  have hql := q.isLt
  rw [Spec.tile_rowW _ (by omega), Spec.tile_rowW _ hql, show (1024 * t.val + p.val) / 128 = 8 * t.val + p.val / 128 from by omega]

/-- An entry of the array is in point `t`'s block iff each coordinate is in the block's range on its axis. -/
theorem mem_blk (t : Fin cfg0.N) (i : S4096x4096.Idx) :
    i ∈ ((cfg0.win 2).blk t).view.set ↔ ∀ a : Fin 2, win0_2.index t a * S1024x4096.size a ≤ (i a).val
      ∧ (i a).val < win0_2.index t a * S1024x4096.size a + S1024x4096.size a := by
  show i ∈ ((View.whole main_v0).slice (win0_2.rect t)).set ↔ _
  rw [View.set_slice_whole, Rect.mem_set_unit]
  exact Iff.rfl

/-- Every entry of the array is in some point's block, and every point writes back. -/
theorem cover (i : S4096x4096.Idx) :
    ∃ t : Fin cfg0.N, (cfg0.win 2).flush t = true ∧ i ∈ ((cfg0.win 2).blk t).view.set := by
  have hN : cfg0.N = 4 := N_0
  have hi0 : (i 0).val < 4096 := idx2_lt0 i
  have hi1 : (i 1).val < 4096 := idx2_lt1 i
  let t : Fin cfg0.N := ⟨(i 0).val / 1024, by rw [hN]; omega⟩
  have htv : t.val = (i 0).val / 1024 := rfl
  refine ⟨t, flush0_2 t, ?_⟩
  rw [mem_blk]
  obtain ⟨-, -, -, -, e4, e5⟩ := idx0 t
  intro a
  match a with
  | ⟨0, _⟩ =>
    show win0_2.index t (0 : Fin 2) * 1024 ≤ (i 0).val ∧ (i 0).val < win0_2.index t (0 : Fin 2) * 1024 + 1024
    rw [e4, htv]; omega
  | ⟨1, _⟩ =>
    show win0_2.index t (1 : Fin 2) * 4096 ≤ (i 1).val ∧ (i 1).val < win0_2.index t (1 : Fin 2) * 4096 + 4096
    rw [e5]; omega

/-- The output array after the region: the dequantized weight of the weight and scale table as the region found them. -/
theorem final (c : Dev nD) : (dat0 V c).arrAt 2 cfg0.N = G V c :=
  (dat0 V c).arrAt_eq_of_cover 2 (G V c) (fun t _ => flushed_eq V c t) (cover)

end Cert.KernelIdeal.DeqFinal

end
-- ==== Proof.KValue.lean ====
/-
  The idealized kernel's result.

  The second region ends with its output array at `gemm X WD` of the arrays it finds; it finds `x` as launched
  (the first region does not touch it) and the dequantized weight's array at what the first region left, which
  is `deq w s` of the launched weight and scale table. So the result array ends at `gemm x (deq w s)`.
-/
import proofs.«134244_j1915555414610_2_alg».proof.Proof.KRun
import proofs.«134244_j1915555414610_2_alg».proof.Proof.GemmFinal
import proofs.«134244_j1915555414610_2_alg».proof.Proof.DeqFinal

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array at the last boundary, as a function of the launched arguments. -/
theorem result_eq (c : Dev nD) :
    W2 m ρ c (Proc.devRef .tc main_v1)
      = Spec.result (m ((c : Thread nD τ).loc main_arg0)) (m ((c : Thread nD τ).loc main_arg1)) (m ((c : Thread nD τ).loc main_arg2)) := by
  rw [KRun.W2_result, GemmFinal.final]
  show Spec.gemm (V1 m ρ c main_arg0) (V1 m ρ c main_v0) = Spec.gemm _ (Spec.deq _ _)
  rw [KRun.V1_x, KRun.V1_deq, DeqFinal.final]

/-- Every weakly fair execution of the idealized kernel terminates with the result array at
    `gemm x (deq w s)` of the launched arguments, and the arguments unchanged. -/
theorem run : θ_run defs (onTc (τ := τ) (main (F := Ideal))) ⟨m, fun _ => 0, ρ⟩ (fun r => ∀ c : Dev nD,
      r.2.mem ((c.tc : Thread nD τ).loc main_v1)
        = Spec.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (KRun.run_named m ρ)

end Cert.KernelIdeal.KValue

end
-- ==== Proof.RefIsSpec.lean ====
/-
  The reference program, read at an index, is the shared specification.

  The reference builds the 4096 x 4096 array of scales by two broadcast-and-reshape pairs: the 32 x 32 table is
  repeated 128 times along a new middle axis and flattened to 4096 x 32 (row n holds the table's row n / 128), then
  each entry is repeated 128 times along a new last axis and flattened to 4096 x 4096 (column k holds the previous
  array's column k / 128). So the entry at (n, k) is the table's entry at (n / 128, k / 128). The weight is
  multiplied by this array entrywise, and the result is contracted with the activations along both second axes:
  that is `gemm x (deq w s)`.
-/
import proofs.«134244_j1915555414610_2_alg».proof.Proof.Gen.ReferenceIdeal.Read
import proofs.«134244_j1915555414610_2_alg».proof.Proof.Spec
import Idealize.ShloMosaic.Lib.ValueIdx

noncomputable section

namespace Cert.ReferenceIdeal.RefValue

open Cert.ReferenceIdeal Cert.ReferenceIdeal.Read Idealize.ShloMosaic Idealize.ShloMosaic.TcCoe
open Idealize.ShloMosaic.ValueIdx Cert.Spec

/-- The four layout steps composed: the entry (n, k) of the full array of scales is read from the table at
    (n / 128, k / 128). With f = n * 4096 + k the flat position, the second reshape splits f into
    (f / 4096, f / 128 % 32, f % 128) = (n, k / 128, k % 128); the first reshape splits g = n * 32 + k / 128 into
    (g / 4096, g / 32 % 128, g % 32) = (n / 128, n % 128, k / 128); the broadcasts drop the repeated axes. -/
theorem scale_idx (j : S4096x4096.Idx) :
    idx_main_v0 (idx_main_v1 (idx_main_v2 (idx_main_v3 j))) = ix2 (tile (j 0)) (tile (j 1)) := by
  funext a
  apply Fin.ext
  have h0 : (j 0).val < 4096 := (j 0).isLt
  have h1 : (j 1).val < 4096 := (j 1).isLt
  match a with
  | ⟨0, _⟩ =>
    show (((j 0).val * 4096 + (j 1).val) / 4096 * 32 + ((j 0).val * 4096 + (j 1).val) / 128 % 32) / 4096
      = (j 0).val / 128
    omega
  | ⟨1, _⟩ =>
    show (((j 0).val * 4096 + (j 1).val) / 4096 * 32 + ((j 0).val * 4096 + (j 1).val) / 128 % 32) % 32
      = (j 1).val / 128
    omega

/-- The left operand of the contraction is read at (m, k). -/
theorem lidx_eq (i : S8192x4096.Idx) (k : Fin 4096) : lidx_main_v5 i k = ix2 (i 0) k := by
  funext a
  match a with
  | ⟨0, _⟩ => rfl
  | ⟨1, _⟩ => rfl

/-- The right operand of the contraction is read at (n, k). -/
theorem ridx_eq (i : S8192x4096.Idx) (k : Fin 4096) : ridx_main_v5 i k = ix2 (i 1) k := by
  funext a
  match a with
  | ⟨0, _⟩ => rfl
  | ⟨1, _⟩ => rfl

/-- The reference's result is the specification: the contraction of the activations with the dequantized weight. -/
theorem ref_eq (x0 : (⟨Cert.ReferenceIdeal.S8192x4096, .f32⟩ : BufTy).Contents (Elt Ideal)) (x1 : (⟨Cert.ReferenceIdeal.S4096x4096, .f32⟩ : BufTy).Contents (Elt Ideal)) (x2 : (⟨Cert.ReferenceIdeal.S32x32, .f32⟩ : BufTy).Contents (Elt Ideal)) :
    Cert.ReferenceIdeal.Read.val_main_v5 (F := Ideal) x0 x1 x2 = Cert.Spec.result x0 x1 x2 := by
  funext i
  rw [val_main_v5_apply]
  unfold Cert.Spec.result Cert.Spec.gemm Cert.Spec.deq
  refine Finset.sum_congr rfl fun k _ => ?_
  rw [val_main_v4_apply, val_main_v3_apply, val_main_v2_apply, val_main_v1_apply, val_main_v0_apply, scale_idx,
    lidx_eq, ridx_eq]
  rfl

end Cert.ReferenceIdeal.RefValue

end
-- ==== Proof.lean ====
/-
  The proof of `Cert.Claim`.

  The kernel computes `y = x · (w ⊙ S)ᵀ` in two steps. The first step dequantizes the 4096 x 4096 weight: each
  128 x 128 tile is multiplied by its entry of the 32 x 32 scale table, the tile's scale being spread over the tile
  by two products with 0/1 selector matrices (one 1 per row, resp. per column, found by an integer floor division
  by 128). The second step is the matrix product, accumulated over eight slabs of 512 of the contracted axis into
  an output block that is zeroed at the first slab. The reference spreads the scale table by two broadcast-and-
  reshape pairs, multiplies, and contracts once.

  On the extended reals the two agree entry by entry with no use of finiteness: a sum with a single non-zero
  term is that term (`0 * a = 0` holds for every extended real), and a finite sum may be cut into consecutive
  slabs and summed slab by slab (addition is commutative and associative there). Both programs end with the
  result at `Spec.result x w s = gemm x (deq w s)`:
    * the idealized kernel by `KernelIdeal.KValue.run` (its two regions' write-backs are blocks of `deq w s` and of
      `gemm X WD`, and the blocks tile the arrays),
    * the idealized reference by its run read one operation at a time (`ReferenceIdeal.RefValue.ref_eq`).
  The three frames are the generated ones (the reference's is its run with the result dropped), and the
  idealization rewrote nothing, so `preserves` is trivial.
-/
import proofs.«134244_j1915555414610_2_alg».proof.Defs
import proofs.«134244_j1915555414610_2_alg».proof.Proof.Gen.Kernel
import proofs.«134244_j1915555414610_2_alg».proof.Proof.Gen.Kernel.Skeleton
import proofs.«134244_j1915555414610_2_alg».proof.Proof.Gen.Kernel.Launch
import proofs.«134244_j1915555414610_2_alg».proof.Proof.Gen.Kernel.Points
import proofs.«134244_j1915555414610_2_alg».proof.Proof.Gen.Kernel.Frame
import proofs.«134244_j1915555414610_2_alg».proof.Proof.Gen.KernelIdeal
import proofs.«134244_j1915555414610_2_alg».proof.Proof.Gen.KernelIdeal.Skeleton
import proofs.«134244_j1915555414610_2_alg».proof.Proof.Gen.KernelIdeal.Launch
import proofs.«134244_j1915555414610_2_alg».proof.Proof.Gen.KernelIdeal.Points
import proofs.«134244_j1915555414610_2_alg».proof.Proof.Gen.KernelIdeal.Frame
import proofs.«134244_j1915555414610_2_alg».proof.Proof.Gen.ReferenceIdeal
import proofs.«134244_j1915555414610_2_alg».proof.Proof.Gen.Pre_finite_inputs
import proofs.«134244_j1915555414610_2_alg».proof.Proof.Gen.ReferenceIdeal.Run
import proofs.«134244_j1915555414610_2_alg».proof.Proof.Gen.ReferenceIdeal.Read
import proofs.«134244_j1915555414610_2_alg».proof.Proof.KValue
import proofs.«134244_j1915555414610_2_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both idealized programs end with the result at
    `gemm x (deq w s)` of the kernel's arguments. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
